-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S512x128 : Shape := ⟨2, ![512, 128]⟩
abbrev S128x64 : Shape := ⟨2, ![128, 64]⟩
abbrev S800000 : Shape := ⟨1, ![800000]⟩
abbrev S1000 : Shape := ⟨1, ![1000]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128x64 : S_.BroadcastsInDim S128x64 (![] : Fin 0 → Fin S128x64.rank)
  reducesTo_S128x64_S_d0_1 : S128x64.ReducesTo [0, 1] S_
  bcast_S_S800000 : S_.BroadcastsInDim S800000 (![] : Fin 0 → Fin S800000.rank)
  reducesTo_S800000_S_d0 : S800000.ReducesTo [0] S_

variable [Facts]

def fn_part1 {F : FTy → Type} [FloatOps F] (main_v13 : IVec S_ 1) (main_v16 : IVec S800000 1) : IVec S_ 1 :=
  let main_c_5 : IVec S_ 1 := constantI S_ 1 1#1
  let main_v17 : IVec S_ 1 := (fun x v => Host.reduce IntOp.andi x v reducesTo_S800000_S_d0 h_S_) main_v16 main_c_5
  let main_v18 : IVec S_ 1 := andi main_v13 main_v17
  main_v18

def fn {F : FTy → Type} [FloatOps F] (main_arg0 : FVec F S50000x512 .f32) (main_arg1 : FVec F S512x128 .f32) (main_arg2 : FVec F S128x64 .f32) (main_arg3 : FVec F S800000 .f32) (main_arg4 : IVec S800000 32) (main_arg5 : IVec S800000 32) (main_arg6 : IVec S1000 32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S800000 .f32 := Host.absf main_arg3
  let main_cst_4 : FVec F S_ .f32 := constant S_ .f32 0x7F800000#32
  let main_v15 : FVec F S800000 .f32 := broadcastInDim S800000 ![] bcast_S_S800000 main_cst_4
  let main_v16 : IVec S800000 1 := cmpf .olt main_v14 main_v15
  fn_part1 (F := F) main_v13 main_v16
-- ==== Kernel.lean ====
abbrev S50000x512 : Shape := ⟨2, ![50000, 512]⟩
abbrev S512x128 : Shape := ⟨2, ![512, 128]⟩
abbrev S128x64 : Shape := ⟨2, ![128, 64]⟩
abbrev S800000 : Shape := ⟨1, ![800000]⟩
abbrev S1000 : Shape := ⟨1, ![1000]⟩
abbrev S50000x128 : Shape := ⟨2, ![50000, 128]⟩
abbrev S5000x512 : Shape := ⟨2, ![5000, 512]⟩
abbrev S5000x128 : Shape := ⟨2, ![5000, 128]⟩
abbrev S_ : Shape := ⟨0, ![]⟩
abbrev S800000x1 : Shape := ⟨2, ![800000, 1]⟩
abbrev S800000x128 : Shape := ⟨2, ![800000, 128]⟩
abbrev S50000x64 : Shape := ⟨2, ![50000, 64]⟩
abbrev S5000x64 : Shape := ⟨2, ![5000, 64]⟩
abbrev S800000x64 : Shape := ⟨2, ![800000, 64]⟩
abbrev S1000x1 : Shape := ⟨2, ![1000, 1]⟩
abbrev S1000x64 : Shape := ⟨2, ![1000, 64]⟩

abbrev nBuf : Space → Nat
  | .hbm => 50
  | .vmem => 10
  | .smem => 0
  | _ => 0

abbrev bufTy : (tb : Table) → Fin (tcTables nBuf tb) → BufTy
  | .hbm, ⟨0, _⟩ => ⟨S50000x512, .f32⟩
  | .hbm, ⟨1, _⟩ => ⟨S512x128, .f32⟩
  | .hbm, ⟨2, _⟩ => ⟨S128x64, .f32⟩
  | .hbm, ⟨3, _⟩ => ⟨S800000, .f32⟩
  | .hbm, ⟨4, _⟩ => ⟨S800000, .i32⟩
  | .hbm, ⟨5, _⟩ => ⟨S800000, .i32⟩
  | .hbm, ⟨6, _⟩ => ⟨S1000, .i32⟩
  | .hbm, ⟨7, _⟩ => ⟨S50000x128, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x128, .f32⟩
  | .hbm, ⟨17, _⟩ => ⟨S800000x1, .f32⟩
  | .hbm, ⟨18, _⟩ => ⟨S800000x128, .f32⟩
  | .hbm, ⟨19, _⟩ => ⟨S800000x128, .f32⟩
  | .hbm, ⟨20, _⟩ => ⟨S_, .f32⟩
  | .hbm, ⟨21, _⟩ => ⟨S50000x128, .f32⟩
  | .hbm, ⟨22, _⟩ => ⟨S800000x1, .i32⟩
  | .hbm, ⟨23, _⟩ => ⟨S50000x128, .f32⟩
  | .hbm, ⟨24, _⟩ => ⟨S50000x64, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x64, .f32⟩
  | .hbm, ⟨34, _⟩ => ⟨S800000x1, .f32⟩
  | .hbm, ⟨35, _⟩ => ⟨S800000x64, .f32⟩
  | .hbm, ⟨36, _⟩ => ⟨S800000x64, .f32⟩
  | .hbm, ⟨37, _⟩ => ⟨S_, .f32⟩
  | .hbm, ⟨38, _⟩ => ⟨S50000x64, .f32⟩
  | .hbm, ⟨39, _⟩ => ⟨S800000x1, .i32⟩
  | .hbm, ⟨40, _⟩ => ⟨S50000x64, .f32⟩
  | .hbm, ⟨41, _⟩ => ⟨S_, .i32⟩
  | .hbm, ⟨42, _⟩ => ⟨S1000, .i32⟩
  | .hbm, ⟨43, _⟩ => ⟨S1000, .i1⟩
  | .hbm, ⟨44, _⟩ => ⟨S_, .i32⟩
  | .hbm, ⟨45, _⟩ => ⟨S1000, .i32⟩
  | .hbm, ⟨46, _⟩ => ⟨S1000, .i32⟩
  | .hbm, ⟨47, _⟩ => ⟨S1000, .i32⟩
  | .hbm, ⟨48, _⟩ => ⟨S1000x1, .i32⟩
  | .hbm, ⟨49, _⟩ => ⟨S1000x64, .f32⟩
  | .local _ .vmem, ⟨0, _⟩ => ⟨S5000x512, .f32⟩
  | .local _ .vmem, ⟨1, _⟩ => ⟨S5000x512, .f32⟩
  | .local _ .vmem, ⟨2, _⟩ => ⟨S512x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x64, .f32⟩
  | .local _ .vmem, ⟨8, _⟩ => ⟨S5000x64, .f32⟩
  | .local _ .vmem, ⟨9, _⟩ => ⟨S5000x64, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_4 : Ref sig .tc := ⟨.hbm, 41, rfl⟩
abbrev main_v28 : Ref sig .tc := ⟨.hbm, 42, rfl⟩
abbrev main_v29 : Ref sig .tc := ⟨.hbm, 43, rfl⟩
abbrev main_c_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S5000x128_S5000x128_0_0 : ∀ a, (![0, 0] : Fin 2 → Nat) a + S5000x128.size a ≤ S5000x128.size a
  h_S5000x128 : 0 < S5000x128.numel
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S_S1000 : S_.BroadcastsInDim S1000 (![] : Fin 0 → Fin S1000.rank)
  bcast_S1000_S1000x1_0 : S1000.BroadcastsInDim S1000x1 (![0] : Fin 1 → Fin S1000x1.rank)
  dot_S5000x512_S512x128_S5000x128_1_0_0_1_n_n_wf : DotDims.WF S5000x512 S512x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  gather_S50000x64_S1000x1_S1000x64_1_0_n_n_0_1_164_wf : GatherDims.WF S50000x64 S1000x1 S1000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S50000x512.size a
  hwx0_0 : ∀ i : grid0.Coords, EltTy.bits .f32 = 32 ∨ (Rect.block (s := S50000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)

variable [Facts₀]

def dot_S5000x512_S512x128_S5000x128_1_0_0_1_n_n : DotDims S5000x512 S512x128 S5000x128 where
  lhsContracting := [1]
  rhsContracting := [0]
  lhsNonContracting := [0]
  rhsNonContracting := [1]
  lhsBatch := []
  rhsBatch := []
  wf := dot_S5000x512_S512x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def gather_S50000x64_S1000x1_S1000x64_1_0_n_n_0_1_164 : GatherDims S50000x64 S1000x1 S1000x64 where
  offsetDims := [1]
  collapsedSliceDims := [0]
  operandBatchingDims := []
  startIndicesBatchingDims := []
  startIndexMap := [0]
  indexVectorDim := 1
  sliceSizes := ![1, 64]
  wf := gather_S50000x64_S1000x1_S1000x64_1_0_n_n_0_1_164_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x512 : Shape := ⟨2, ![50000, 512]⟩
abbrev S512x128 : Shape := ⟨2, ![512, 128]⟩
abbrev S128x64 : Shape := ⟨2, ![128, 64]⟩
abbrev S800000 : Shape := ⟨1, ![800000]⟩
abbrev S1000 : Shape := ⟨1, ![1000]⟩
abbrev S50000x128 : Shape := ⟨2, ![50000, 128]⟩
abbrev S_ : Shape := ⟨0, ![]⟩
abbrev S800000x1 : Shape := ⟨2, ![800000, 1]⟩
abbrev S800000x128 : Shape := ⟨2, ![800000, 128]⟩
abbrev S50000x64 : Shape := ⟨2, ![50000, 64]⟩
abbrev S800000x64 : Shape := ⟨2, ![800000, 64]⟩
abbrev S1000x1 : Shape := ⟨2, ![1000, 1]⟩
abbrev S1000x64 : Shape := ⟨2, ![1000, 64]⟩

abbrev nBuf : Space → Nat
  | .hbm => 53
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S512x128, .f32⟩
  | .hbm, ⟨2, _⟩ => ⟨S128x64, .f32⟩
  | .hbm, ⟨3, _⟩ => ⟨S800000, .f32⟩
  | .hbm, ⟨4, _⟩ => ⟨S800000, .i32⟩
  | .hbm, ⟨5, _⟩ => ⟨S800000, .i32⟩
  | .hbm, ⟨6, _⟩ => ⟨S1000, .i32⟩
  | .hbm, ⟨7, _⟩ => ⟨S50000x128, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x128, .f32⟩
  | .hbm, ⟨17, _⟩ => ⟨S800000x1, .f32⟩
  | .hbm, ⟨18, _⟩ => ⟨S800000x128, .f32⟩
  | .hbm, ⟨19, _⟩ => ⟨S800000x128, .f32⟩
  | .hbm, ⟨20, _⟩ => ⟨S_, .f32⟩
  | .hbm, ⟨21, _⟩ => ⟨S50000x128, .f32⟩
  | .hbm, ⟨22, _⟩ => ⟨S800000x1, .i32⟩
  | .hbm, ⟨23, _⟩ => ⟨S50000x128, .f32⟩
  | .hbm, ⟨24, _⟩ => ⟨S_, .f32⟩
  | .hbm, ⟨25, _⟩ => ⟨S50000x128, .f32⟩
  | .hbm, ⟨26, _⟩ => ⟨S50000x128, .f32⟩
  | .hbm, ⟨27, _⟩ => ⟨S50000x64, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x64, .f32⟩
  | .hbm, ⟨37, _⟩ => ⟨S800000x1, .f32⟩
  | .hbm, ⟨38, _⟩ => ⟨S800000x64, .f32⟩
  | .hbm, ⟨39, _⟩ => ⟨S800000x64, .f32⟩
  | .hbm, ⟨40, _⟩ => ⟨S_, .f32⟩
  | .hbm, ⟨41, _⟩ => ⟨S50000x64, .f32⟩
  | .hbm, ⟨42, _⟩ => ⟨S800000x1, .i32⟩
  | .hbm, ⟨43, _⟩ => ⟨S50000x64, .f32⟩
  | .hbm, ⟨44, _⟩ => ⟨S_, .i32⟩
  | .hbm, ⟨45, _⟩ => ⟨S1000, .i32⟩
  | .hbm, ⟨46, _⟩ => ⟨S1000, .i1⟩
  | .hbm, ⟨47, _⟩ => ⟨S_, .i32⟩
  | .hbm, ⟨48, _⟩ => ⟨S1000, .i32⟩
  | .hbm, ⟨49, _⟩ => ⟨S1000, .i32⟩
  | .hbm, ⟨50, _⟩ => ⟨S1000, .i32⟩
  | .hbm, ⟨51, _⟩ => ⟨S1000x1, .i32⟩
  | .hbm, ⟨52, _⟩ => ⟨S1000x64, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_cst : Ref sig .tc := ⟨.hbm, 24, rfl⟩
abbrev main_call0_v0 : Ref sig .tc := ⟨.hbm, 25, rfl⟩
abbrev main_v14 : Ref sig .tc := ⟨.hbm, 26, rfl⟩
abbrev main_v15 : Ref sig .tc := ⟨.hbm, 27, rfl⟩
abbrev main_c_1 : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_4 : Ref sig .tc := ⟨.hbm, 44, rfl⟩
abbrev main_v29 : Ref sig .tc := ⟨.hbm, 45, rfl⟩
abbrev main_v30 : Ref sig .tc := ⟨.hbm, 46, rfl⟩
abbrev main_c_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S_S1000 : S_.BroadcastsInDim S1000 (![] : Fin 0 → Fin S1000.rank)
  bcast_S1000_S1000x1_0 : S1000.BroadcastsInDim S1000x1 (![0] : Fin 1 → Fin S1000x1.rank)
  dot_S50000x512_S512x128_S50000x128_1_0_0_1_n_n_wf : DotDims.WF S50000x512 S512x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  gather_S50000x64_S1000x1_S1000x64_1_0_n_n_0_1_164_wf : GatherDims.WF S50000x64 S1000x1 S1000x64 [1] [0] [] [0] [] 1 ![1, 64]

variable [Facts₀]

def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def gather_S50000x64_S1000x1_S1000x64_1_0_n_n_0_1_164 : GatherDims S50000x64 S1000x1 S1000x64 where
  offsetDims := [1]
  collapsedSliceDims := [0]
  operandBatchingDims := []
  startIndicesBatchingDims := []
  startIndexMap := [0]
  indexVectorDim := 1
  sliceSizes := ![1, 64]
  wf := gather_S50000x64_S1000x1_S1000x64_1_0_n_n_0_1_164_wf

class Facts : Prop extends Facts₀ where

variable [Facts]
-- ==== Proof.Spec.lean ====
/-
  A plain matrix product as one function of its two operands, and the rectifier between the two layers.

  `rowsTimesCols a w` is the `[n, h]` array whose entry `(e, q)` is the sum over `k` of `a (e, k) · w (k, q)`, taken in
  the extended reals. `rectify s` replaces every entry of `s` by its maximum with zero, the zero being the value of the all-zero
  32-bit float word.
-/
import Idealize.ShloMosaic.PureOps.Ideal.Laws
import Idealize.ShloMosaic.Lib.ValueIdx

noncomputable section

namespace Cert.Spec

open Idealize.ShloMosaic Idealize.ShloMosaic.ValueIdx

/-- Rows of `a` times columns of `w`: entry `(e, q)` is `∑ k, a (e, k) · w (k, q)`. -/
def rowsTimesCols {n K h : Nat} (a : FVec Ideal ⟨2, ![n, K]⟩ .f32) (w : FVec Ideal ⟨2, ![K, h]⟩ .f32) :
    FVec Ideal ⟨2, ![n, h]⟩ .f32 :=
  fun i => ∑ k : Fin K, a (ix2 (n0 := n) (i 0) k) * w (ix2 (n1 := h) k (i 1))

theorem rowsTimesCols_apply {n K h : Nat} (a : FVec Ideal ⟨2, ![n, K]⟩ .f32) (w : FVec Ideal ⟨2, ![K, h]⟩ .f32)
    (e : Fin n) (q : Fin h) :
    rowsTimesCols a w (ix2 e q) = ∑ k : Fin K, a (ix2 e k) * w (ix2 k q) := rfl

/-- Every entry replaced by its maximum with zero. -/
def rectify {s : Shape} (x : FVec Ideal s .f32) : FVec Ideal s .f32 :=
  fun i => max (x i) (Ideal.ofBits .f32 0x00000000#32)

theorem rectify_apply {s : Shape} (x : FVec Ideal s .f32) (i : s.Idx) :
    rectify x i = max (x i) (Ideal.ofBits .f32 0x00000000#32) := rfl

end Cert.Spec

end
-- ==== Proof.LibDense.lean ====
/-
  A plain matrix product read as rows times columns.

  A dot whose dimension numbers contract the left operand's columns with the right operand's rows, with no batch
  axis, sends an `[n, K]` array and a `[K, h]` array to the `[n, h]` array whose entry `(e, q)` is the sum over `k` of
  `left (e, k) · right (k, q)`. The dimension numbers enter only through four facts about where the dot reads its
  operands (`hl0`, `hl1`, `hr0`, `hr1`), which a given record of dimension numbers decides; at the exact
  extended-real values the kernel's product into a zero accumulator and the host's product are both that sum,
  whatever format the operands were rounded to on the way in.
-/
import Idealize.ShloMosaic.PureOps.Ideal.Laws
import Idealize.ShloMosaic.Lib.ValueIdx

namespace Idealize.ShloMosaic.ValueIdx

/-- The contraction position's one coordinate, re-indexed by `Fin K`: the operands' indices at output `(e, q)` and
    position `k` are `(e, k)` and `(k, q)`. -/
theorem plainDot_indices {n K h : Nat} (D : DotDims ⟨2, ![n, K]⟩ ⟨2, ![K, h]⟩ ⟨2, ![n, h]⟩)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (e : Fin n) (q : Fin h) (k : Fin K) :
    D.lhsIdx (ix2 e q) ((contrEquiv1 D K hr hs).symm k) = ix2 e k
    ∧ D.rhsIdx (ix2 e q) ((contrEquiv1 D K hr hs).symm k) = ix2 k q := by
  have hk := contrEquiv1_symm_val D K hr hs k
  constructor
  · funext a
    apply Fin.ext
    match a with
    | ⟨0, _⟩ => exact hl0 _ _
    | ⟨1, _⟩ => exact (hl1 _ _).trans hk
  · funext a
    apply Fin.ext
    match a with
    | ⟨0, _⟩ => exact (hr0 _ _).trans hk
    | ⟨1, _⟩ => exact hr1 _ _

/-- The kernel's product into the zero accumulator, at `(e, q)`: the sum over `k` of `a (e, k) · w (k, q)`. -/
theorem matmul_zero_plain_apply {n K h : Nat} {φ₁ φ₂ : FTy} (D : DotDims ⟨2, ![n, K]⟩ ⟨2, ![K, h]⟩ ⟨2, ![n, h]⟩)
    (prec : Option ContractPrecision)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (a : FVec Ideal ⟨2, ![n, K]⟩ φ₁) (w : FVec Ideal ⟨2, ![K, h]⟩ φ₂) (e : Fin n) (q : Fin h) :
    FloatOps.matmul D prec a w (constant ⟨2, ![n, h]⟩ .f32 0x00000000#32) (ix2 e q) = ∑ k : Fin K, a (ix2 e k) * w (ix2 k q) := by
  rw [Ideal.matmul_constant_zero_apply, ← Equiv.sum_comp (contrEquiv1 D K hr hs).symm]
  refine Finset.sum_congr rfl fun k _ => ?_
  obtain ⟨el, er⟩ := plainDot_indices D hr hs hl0 hl1 hr0 hr1 e q k
  rw [el, er]

/-- The host's product, at `(e, q)`: the same sum. -/
theorem dotGeneral_plain_apply {n K h : Nat} {φ₁ φ₂ : FTy} (D : DotDims ⟨2, ![n, K]⟩ ⟨2, ![K, h]⟩ ⟨2, ![n, h]⟩)
    (prec : Option ContractPrecision) (sched : HostSchedule)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (a : FVec Ideal ⟨2, ![n, K]⟩ φ₁) (w : FVec Ideal ⟨2, ![K, h]⟩ φ₂) (e : Fin n) (q : Fin h) :
    FloatOps.dotGeneral D prec sched a w (ix2 e q) = ∑ k : Fin K, a (ix2 e k) * w (ix2 k q) := by
  rw [Ideal.dotGeneral_apply, ← Equiv.sum_comp (contrEquiv1 D K hr hs).symm]
  refine Finset.sum_congr rfl fun k _ => ?_
  obtain ⟨el, er⟩ := plainDot_indices D hr hs hl0 hl1 hr0 hr1 e q k
  rw [el, er]

end Idealize.ShloMosaic.ValueIdx
-- ==== Proof.Layer0.lean ====
/-
  The first layer's product, read off the first pipelined call.

  The call tiles the rows of `x` into ten blocks of 5000 rows; at each grid point the body multiplies the point's
  block of `x` by the whole of `W0` into a zero accumulator and stores the product as the point's block of the
  result. Row `r` of the result therefore depends on row `r` of `x` only, and the ten blocks written back are the ten
  row blocks of the one array `rowsTimesCols x W0`; since they cover all 50000 rows, that array is what the call leaves.
-/
import proofs.«107380_j51694226375203_2_alg».proof.Proof.Gen.KernelIdeal.Frame
import proofs.«107380_j51694226375203_2_alg».proof.Proof.Spec
import proofs.«107380_j51694226375203_2_alg».proof.Proof.LibDense
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Layer0

open Cert.KernelIdeal Cert.KernelIdeal.Gen Cert.Spec

theorem hz : (![0, 0] : Fin 2 → Nat) = fun _ => 0 := funext fun a => by fin_cases a <;> rfl

/-! ## Where the body's product reads its operands -/

theorem lhs0 (i : S5000x128.Idx) (q : dot_S5000x512_S512x128_S5000x128_1_0_0_1_n_n.contr.Idx) :
    (dot_S5000x512_S512x128_S5000x128_1_0_0_1_n_n.lhsIdx i q 0).val = (i 0).val := by
  unfold DotDims.lhsIdx
  rw [dif_neg (show ¬(0 : Fin S5000x512.rank) ∈ dot_S5000x512_S512x128_S5000x128_1_0_0_1_n_n.lhsBatch by decide), dif_pos (show (0 : Fin S5000x512.rank) ∈ dot_S5000x512_S512x128_S5000x128_1_0_0_1_n_n.lhsNonContracting by decide)]
  rfl
theorem lhs1 (i : S5000x128.Idx) (q : dot_S5000x512_S512x128_S5000x128_1_0_0_1_n_n.contr.Idx) :
    (dot_S5000x512_S512x128_S5000x128_1_0_0_1_n_n.lhsIdx i q 1).val = (q ⟨0, by decide⟩).val :=
  dot_S5000x512_S512x128_S5000x128_1_0_0_1_n_n.lhsIdx_val_of_single rfl i q
theorem rhs0 (i : S5000x128.Idx) (q : dot_S5000x512_S512x128_S5000x128_1_0_0_1_n_n.contr.Idx) :
    (dot_S5000x512_S512x128_S5000x128_1_0_0_1_n_n.rhsIdx i q 0).val = (q ⟨0, by decide⟩).val :=
  dot_S5000x512_S512x128_S5000x128_1_0_0_1_n_n.rhsIdx_val_of_single rfl i q
theorem rhs1 (i : S5000x128.Idx) (q : dot_S5000x512_S512x128_S5000x128_1_0_0_1_n_n.contr.Idx) :
    (dot_S5000x512_S512x128_S5000x128_1_0_0_1_n_n.rhsIdx i q 1).val = (i 1).val := by
  unfold DotDims.rhsIdx
  rw [dif_neg (show ¬(1 : Fin S512x128.rank) ∈ dot_S5000x512_S512x128_S5000x128_1_0_0_1_n_n.rhsBatch by decide), dif_pos (show (1 : Fin S512x128.rank) ∈ dot_S5000x512_S512x128_S5000x128_1_0_0_1_n_n.rhsNonContracting by decide)]
  rfl

/-- The body's stored value at `(e, q)`: row `e` of the `x` block times column `q` of `W0`. -/
theorem pay_apply (x0 : Vec Ideal S5000x512 .f32) (x1 : Vec Ideal S512x128 .f32) (e : Fin 5000) (q : Fin 128) :
    k0_pay1 (F := Ideal) x0 x1 (ix2 e q) = ∑ k : Fin 512, x0 (ix2 e k) * x1 (ix2 k q) := by
  unfold k0_pay1
  exact matmul_zero_plain_apply dot_S5000x512_S512x128_S5000x128_1_0_0_1_n_n none rfl rfl lhs0 lhs1 rhs0 rhs1 _ _ e q

variable (V : (c : Dev nD) → (b : Ref sig .tc) → Buf (Elt Ideal) ((c : Thread nD τ).loc b))

/-! ## The blocks: which rows and columns of the arrays each grid point sees -/

/-- At grid point `t` the blocks of `x` and of the result are row block `t`; the block of `W0` is the whole of it. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The block of `x` at point `t` is rows `5000 t … 5000 t + 4999` of `x`. -/
theorem xblk_apply (c : Dev nD) (t : Fin cfg0.N) (y : S5000x512.Idx) (i : S50000x512.Idx)
    (h0 : (i 0).val = t.val * 5000 + (y 0).val) (h1 : (i 1).val = (y 1).val) :
    (iblk0 V c 0 t : Vec Ideal S5000x512 .f32) y = (V c main_arg0 : S50000x512.Idx → Elt Ideal .f32) i := by
  obtain ⟨e0, e1, -, -, -, -⟩ := idx_facts t
  unfold iblk0
  rw [View.read_apply]
  show (V c main_arg0 : S50000x512.Idx → Elt Ideal .f32) _ = V c main_arg0 i
  refine congrArg (V c main_arg0 : S50000x512.Idx → Elt Ideal .f32) ?_
  funext a
  apply Fin.ext
  match a with
  | ⟨0, _⟩ => show win0_0.index t 0 * 5000 + 1 * (y 0).val = (i 0).val; rw [e0, h0]; omega
  | ⟨1, _⟩ => show win0_0.index t 1 * 512 + 1 * (y 1).val = (i 1).val; rw [e1, h1]; omega

/-- The block of `W0` at every point is `W0`. -/
theorem wblk_apply (c : Dev nD) (t : Fin cfg0.N) (y : S512x128.Idx) (i : S512x128.Idx)
    (h0 : (i 0).val = (y 0).val) (h1 : (i 1).val = (y 1).val) :
    (iblk0 V c 1 t : Vec Ideal S512x128 .f32) y = (V c main_arg1 : S512x128.Idx → Elt Ideal .f32) i := by
  obtain ⟨-, -, e0, e1, -, -⟩ := idx_facts t
  unfold iblk0
  rw [View.read_apply]
  show (V c main_arg1 : S512x128.Idx → Elt Ideal .f32) _ = V c main_arg1 i
  refine congrArg (V c main_arg1 : S512x128.Idx → Elt Ideal .f32) ?_
  funext a
  apply Fin.ext
  match a with
  | ⟨0, _⟩ => show win0_1.index t 0 * 512 + 1 * (y 0).val = (i 0).val; rw [e0, h0]; omega
  | ⟨1, _⟩ => show win0_1.index t 1 * 128 + 1 * (y 1).val = (i 1).val; rw [e1, h1]; omega

/-! ## What a grid point writes back, and the whole result -/

/-- What point `t` writes back is row block `t` of `rowsTimesCols x W0`. -/
theorem flushed_eq (c : Dev nD) (t : Fin cfg0.N) :
    (dat0 V c).flushed 2 t = ((cfg0.win 2).blk t).view.read (Elt Ideal) (rowsTimesCols (n := 50000) (K := 512) (h := 128) (V c main_arg0) (V c main_arg1)) := by
  show (cfg0.win 2).cut (grid0.coords t) ((dat0 V c).after 2 t) = _
  rw [after0_2]
  unfold out0_2
  rw [View.canon_unit_zero hz]
  simp only [View.ld_unit_zero (S := S5000x512) hz, View.ld_unit_zero (S := S512x128) hz]
  obtain ⟨-, -, -, -, e0, e1⟩ := idx_facts t
  funext j
  obtain ⟨e, q, rfl⟩ : ∃ (e : Fin 5000) (q : Fin 128), j = ix2 e q := ⟨j 0, j 1, eq_ix2 j⟩
  show k0_pay1 (F := Ideal) (iblk0 V c 0 t) (iblk0 V c 1 t) (ix2 e q)
    = rowsTimesCols (n := 50000) (K := 512) (h := 128) (V c main_arg0) (V c main_arg1) (((cfg0.win 2).blk t).view.emb (ix2 e q))
  refine (pay_apply _ _ e q).trans ?_
  refine Finset.sum_congr rfl fun k _ => ?_
  have r0 : ((((cfg0.win 2).blk t).view.emb (ix2 e q) : S50000x128.Idx) 0).val = t.val * 5000 + e.val := by
    show win0_2.index t 0 * 5000 + 1 * e.val = _; rw [e0]; omega
  have r1 : ((((cfg0.win 2).blk t).view.emb (ix2 e q) : S50000x128.Idx) 1).val = q.val := by
    show win0_2.index t 1 * 128 + 1 * q.val = _; rw [e1]; omega
  rw [xblk_apply V c t (ix2 e k) (ix2 ((((cfg0.win 2).blk t).view.emb (ix2 e q) : S50000x128.Idx) 0) k) r0 rfl,
    wblk_apply V c t (ix2 k q) (ix2 k ((((cfg0.win 2).blk t).view.emb (ix2 e q) : S50000x128.Idx) 1)) rfl r1]

/-- Row `r` of the result lies in the block of point `r / 5000`. -/
theorem cover (i : S50000x128.Idx) :
    ∃ t : Fin cfg0.N, (cfg0.win 2).flush t = true ∧ i ∈ ((cfg0.win 2).blk t).view.set := by
  have h0 : (i 0).val < 50000 := (i 0).isLt
  have h1 : (i 1).val < 128 := (i 1).isLt
  have ht : (i 0).val / 5000 < cfg0.N := by rw [show cfg0.N = 10 from N_0]; omega
  refine ⟨⟨(i 0).val / 5000, ht⟩, flush0_2 _, ?_⟩
  obtain ⟨-, -, -, -, e0, e1⟩ := idx_facts ⟨(i 0).val / 5000, ht⟩
  show i ∈ ((View.whole main_v0).slice (win0_2.rect ⟨(i 0).val / 5000, ht⟩)).set
  rw [View.set_slice_whole, Rect.mem_set_unit]
  intro a
  match a with
  | ⟨0, _⟩ =>
    show win0_2.index ⟨(i 0).val / 5000, ht⟩ 0 * 5000 ≤ (i 0).val ∧ (i 0).val < win0_2.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win0_2.index ⟨(i 0).val / 5000, ht⟩ 1 * 128 ≤ (i 1).val ∧ (i 1).val < win0_2.index ⟨(i 0).val / 5000, ht⟩ 1 * 128 + 128
    rw [e1]; omega

/-- The array the first call leaves: the rows of `x` times the columns of `W0`. -/
theorem final (c : Dev nD) :
    (dat0 V c).arrAt 2 cfg0.N = rowsTimesCols (n := 50000) (K := 512) (h := 128) (V c main_arg0) (V c main_arg1) :=
  (dat0 V c).arrAt_eq_of_cover 2 _ (fun t _ => flushed_eq V c t) cover

end Cert.KernelIdeal.Layer0

end
-- ==== Proof.Layer1.lean ====
/-
  The second layer's product, read off the second pipelined call.

  The call tiles the rows of the aggregated first layer `s` into ten blocks of 5000 rows; at each grid point the body
  takes the maximum of the point's block of `s` with zero, multiplies it by the whole of `W1` into a zero accumulator
  and stores the product as the point's block of the result. Row `r` of the result depends on row `r` of `s` only, so
  the ten blocks written back are the ten row blocks of the one array `rowsTimesCols (rectify s) W1`; they cover all
  50000 rows, and that array is what the call leaves.
-/
import proofs.«107380_j51694226375203_2_alg».proof.Proof.Gen.KernelIdeal.Frame
import proofs.«107380_j51694226375203_2_alg».proof.Proof.Spec
import proofs.«107380_j51694226375203_2_alg».proof.Proof.LibDense
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Layer1

open Cert.KernelIdeal Cert.KernelIdeal.Gen Cert.Spec

theorem hz : (![0, 0] : Fin 2 → Nat) = fun _ => 0 := funext fun a => by fin_cases a <;> rfl

/-! ## Where the body's product reads its operands -/

theorem lhs0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The body's stored value at `(e, q)`: row `e` of the rectified `s` block times column `q` of `W1`. -/
theorem pay_apply (x0 : Vec Ideal S5000x128 .f32) (x1 : Vec Ideal S128x64 .f32) (e : Fin 5000) (q : Fin 64) :
    k1_pay1 (F := Ideal) x0 x1 (ix2 e q) = ∑ k : Fin 128, rectify (s := S5000x128) x0 (ix2 e k) * x1 (ix2 k q) := by
  unfold k1_pay1
  refine (matmul_zero_plain_apply dot_S5000x128_S128x64_S5000x64_1_0_0_1_n_n none rfl rfl lhs0 lhs1 rhs0 rhs1 _ _ e q).trans ?_
  refine Finset.sum_congr rfl fun k _ => ?_
  rw [truncf_apply, truncf_apply, maximumf_apply, shapeCast_self]
  rfl

variable (V : (c : Dev nD) → (b : Ref sig .tc) → Buf (Elt Ideal) ((c : Thread nD τ).loc b))

/-! ## The blocks: which rows and columns of the arrays each grid point sees -/

/-- At grid point `t` the blocks of `s` and of the result are row block `t`; the block of `W1` is the whole of it. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The block of `s` at point `t` is rows `5000 t … 5000 t + 4999` of `s`. -/
theorem sblk_apply (c : Dev nD) (t : Fin cfg1.N) (y : S5000x128.Idx) (i : S50000x128.Idx)
    (h0 : (i 0).val = t.val * 5000 + (y 0).val) (h1 : (i 1).val = (y 1).val) :
    (iblk1 V c 0 t : Vec Ideal S5000x128 .f32) y = (V c main_v13 : S50000x128.Idx → Elt Ideal .f32) i := by
  obtain ⟨e0, e1, -, -, -, -⟩ := idx_facts t
  unfold iblk1
  rw [View.read_apply]
  show (V c main_v13 : S50000x128.Idx → Elt Ideal .f32) _ = V c main_v13 i
  refine congrArg (V c main_v13 : S50000x128.Idx → Elt Ideal .f32) ?_
  funext a
  apply Fin.ext
  match a with
  | ⟨0, _⟩ => show win1_0.index t 0 * 5000 + 1 * (y 0).val = (i 0).val; rw [e0, h0]; omega
  | ⟨1, _⟩ => show win1_0.index t 1 * 128 + 1 * (y 1).val = (i 1).val; rw [e1, h1]; omega

/-- The block of `W1` at every point is `W1`. -/
theorem wblk_apply (c : Dev nD) (t : Fin cfg1.N) (y : S128x64.Idx) (i : S128x64.Idx)
    (h0 : (i 0).val = (y 0).val) (h1 : (i 1).val = (y 1).val) :
    (iblk1 V c 1 t : Vec Ideal S128x64 .f32) y = (V c main_arg2 : S128x64.Idx → Elt Ideal .f32) i := by
  obtain ⟨-, -, e0, e1, -, -⟩ := idx_facts t
  unfold iblk1
  rw [View.read_apply]
  show (V c main_arg2 : S128x64.Idx → Elt Ideal .f32) _ = V c main_arg2 i
  refine congrArg (V c main_arg2 : S128x64.Idx → Elt Ideal .f32) ?_
  funext a
  apply Fin.ext
  match a with
  | ⟨0, _⟩ => show win1_1.index t 0 * 128 + 1 * (y 0).val = (i 0).val; rw [e0, h0]; omega
  | ⟨1, _⟩ => show win1_1.index t 1 * 64 + 1 * (y 1).val = (i 1).val; rw [e1, h1]; omega

/-! ## What a grid point writes back, and the whole result -/

/-- What point `t` writes back is row block `t` of `rowsTimesCols (rectify s) W1`. -/
theorem flushed_eq (c : Dev nD) (t : Fin cfg1.N) :
    (dat1 V c).flushed 2 t = ((cfg1.win 2).blk t).view.read (Elt Ideal)
      (rowsTimesCols (n := 50000) (K := 128) (h := 64) (rectify (s := S50000x128) (V c main_v13)) (V c main_arg2)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x64) hz]
  obtain ⟨-, -, -, -, e0, e1⟩ := idx_facts t
  funext j
  obtain ⟨e, q, rfl⟩ : ∃ (e : Fin 5000) (q : Fin 64), j = ix2 e q := ⟨j 0, j 1, eq_ix2 j⟩
  show k1_pay1 (F := Ideal) (iblk1 V c 0 t) (iblk1 V c 1 t) (ix2 e q)
    = rowsTimesCols (n := 50000) (K := 128) (h := 64) (rectify (s := S50000x128) (V c main_v13)) (V c main_arg2) (((cfg1.win 2).blk t).view.emb (ix2 e q))
  refine (pay_apply _ _ e q).trans ?_
  refine Finset.sum_congr rfl fun k _ => ?_
  have r0 : ((((cfg1.win 2).blk t).view.emb (ix2 e q) : S50000x64.Idx) 0).val = t.val * 5000 + e.val := by
    show win1_2.index t 0 * 5000 + 1 * e.val = _; rw [e0]; omega
  have r1 : ((((cfg1.win 2).blk t).view.emb (ix2 e q) : S50000x64.Idx) 1).val = q.val := by
    show win1_2.index t 1 * 64 + 1 * q.val = _; rw [e1]; omega
  rw [rectify_apply, rectify_apply,
    sblk_apply V c t (ix2 e k) (ix2 ((((cfg1.win 2).blk t).view.emb (ix2 e q) : S50000x64.Idx) 0) k) r0 rfl,
    wblk_apply V c t (ix2 k q) (ix2 k ((((cfg1.win 2).blk t).view.emb (ix2 e q) : S50000x64.Idx) 1)) rfl r1]

/-- Row `r` of the result lies in the block of point `r / 5000`. -/
theorem cover (i : S50000x64.Idx) :
    ∃ t : Fin cfg1.N, (cfg1.win 2).flush t = true ∧ i ∈ ((cfg1.win 2).blk t).view.set := by
  have h0 : (i 0).val < 50000 := (i 0).isLt
  have h1 : (i 1).val < 64 := (i 1).isLt
  have ht : (i 0).val / 5000 < cfg1.N := by rw [show cfg1.N = 10 from N_1]; omega
  refine ⟨⟨(i 0).val / 5000, ht⟩, flush1_2 _, ?_⟩
  obtain ⟨-, -, -, -, e0, e1⟩ := idx_facts ⟨(i 0).val / 5000, ht⟩
  show i ∈ ((View.whole main_v14).slice (win1_2.rect ⟨(i 0).val / 5000, ht⟩)).set
  rw [View.set_slice_whole, Rect.mem_set_unit]
  intro a
  match a with
  | ⟨0, _⟩ =>
    show win1_2.index ⟨(i 0).val / 5000, ht⟩ 0 * 5000 ≤ (i 0).val ∧ (i 0).val < win1_2.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win1_2.index ⟨(i 0).val / 5000, ht⟩ 1 * 64 ≤ (i 1).val ∧ (i 1).val < win1_2.index ⟨(i 0).val / 5000, ht⟩ 1 * 64 + 64
    rw [e1]; omega

/-- The array the second call leaves: the rows of the rectified `s` times the columns of `W1`. -/
theorem final (c : Dev nD) :
    (dat1 V c).arrAt 2 cfg1.N
      = rowsTimesCols (n := 50000) (K := 128) (h := 64) (rectify (s := S50000x128) (V c main_v13)) (V c main_arg2) :=
  (dat1 V c).arrAt_eq_of_cover 2 _ (fun t _ => flushed_eq V c t) cover

end Cert.KernelIdeal.Layer1

end
-- ==== Proof.HostSide.lean ====
/-
  The host side of the two graph-convolution layers, as three functions.

  `aggregate128 h w src dst` is the sparse aggregation of a `[50000, 128]` feature array `h` over the 800000 weighted
  edges: row `src e` of `h` (a negative index counted from the end) is gathered for every edge `e`, scaled by the edge's
  weight `w e`, and added into row `dst e` of an array of zeros. `aggregate64` is the same on a `[50000, 64]` array, and
  `pick a idx` gathers the 1000 rows `idx` of a `[50000, 64]` array. Both programs apply exactly these operations around
  their two matrix products, so each is carried as one function of its operands.
-/
import proofs.«107380_j51694226375203_2_alg».proof.Proof.Gen.KernelIdeal
import Idealize.ShloMosaic.PureOps.Ideal

noncomputable section

namespace Cert.KernelIdeal.Host

open Cert.KernelIdeal Idealize.ShloMosaic
open Cert.KernelIdeal.Facts₀

/-- An edge's end point as a row number: a negative index is counted from the last row. -/
def wrapEdge (ix : (⟨S800000, .i32⟩ : BufTy).Contents (Elt Ideal)) : (⟨S800000x1, .i32⟩ : BufTy).Contents (Elt Ideal) :=
  broadcastInDim S800000x1 ![0] bcast_S800000_S800000x1_0 (select (cmpi .slt ix (broadcastInDim S800000 ![] bcast_S_S800000 (constantI S_ 32 0#32))) (addi ix (broadcastInDim S800000 ![] bcast_S_S800000 (constantI S_ 32 50000#32))) ix)

/-- Gather rows by `src`, scale by the edge weights, add into rows `dst` of zeros: `[50000, 128]`. -/
def aggregate128 (h : (⟨S50000x128, .f32⟩ : BufTy).Contents (Elt Ideal)) (w : (⟨S800000, .f32⟩ : BufTy).Contents (Elt Ideal))
    (src dst : (⟨S800000, .i32⟩ : BufTy).Contents (Elt Ideal)) : (⟨S50000x128, .f32⟩ : BufTy).Contents (Elt Ideal) :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (mulf (Host.gather gather_S50000x128_S800000x1_S800000x128_1_0_n_n_0_1_1128 h (wrapEdge src))
      (broadcastInDim S800000x128 ![0, 1] bcast_S800000x1_S800000x128_0_1 (broadcastInDim S800000x1 ![0] bcast_S800000_S800000x1_0 w)))

/-- The same aggregation of a `[50000, 64]` array. -/
def aggregate64 (h : (⟨S50000x64, .f32⟩ : BufTy).Contents (Elt Ideal)) (w : (⟨S800000, .f32⟩ : BufTy).Contents (Elt Ideal))
    (src dst : (⟨S800000, .i32⟩ : BufTy).Contents (Elt Ideal)) : (⟨S50000x64, .f32⟩ : BufTy).Contents (Elt Ideal) :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 dst)
    (mulf (Host.gather gather_S50000x64_S800000x1_S800000x64_1_0_n_n_0_1_164 h (wrapEdge src))
      (broadcastInDim S800000x64 ![0, 1] bcast_S800000x1_S800000x64_0_1 (broadcastInDim S800000x1 ![0] bcast_S800000_S800000x1_0 w)))

/-- The rows `idx` (a negative index counted from the last row) of a `[50000, 64]` array. -/
def pick (a : (⟨S50000x64, .f32⟩ : BufTy).Contents (Elt Ideal)) (idx : (⟨S1000, .i32⟩ : BufTy).Contents (Elt Ideal)) :
    (⟨S1000x64, .f32⟩ : BufTy).Contents (Elt Ideal) :=
  Host.gather gather_S50000x64_S1000x1_S1000x64_1_0_n_n_0_1_164 a
    (broadcastInDim S1000x1 ![0] bcast_S1000_S1000x1_0 (select (cmpi .slt idx (broadcastInDim S1000 ![] bcast_S_S1000 (constantI S_ 32 0#32))) (addi idx (broadcastInDim S1000 ![] bcast_S_S1000 (constantI S_ 32 50000#32))) idx))

end Cert.KernelIdeal.Host

end
-- ==== Proof.KernelRun.lean ====
/-
  The idealized kernel's run, with the result buffer kept in view.

  The program is four stretches in a row: the first pipelined call, sixteen host operations, the second pipelined
  call, twenty-five host operations. Every weakly fair execution terminates without a fault, and it ends with every
  unscoped buffer holding the fold of those four stretches over the launch contents: a call replaces its arrays by
  what its write-backs leave, a stretch of host operations replaces each operation's result buffer by the operation's
  value. In particular the result buffer ends at that fold read there, and the seven arguments, which no stretch
  writes, end at their launch contents.
-/
import proofs.«107380_j51694226375203_2_alg».proof.Proof.Gen.KernelIdeal.Frame
import proofs.«107380_j51694226375203_2_alg».proof.Proof.Layer0
import proofs.«107380_j51694226375203_2_alg».proof.Proof.Layer1
import proofs.«107380_j51694226375203_2_alg».proof.Proof.HostSide
import Idealize.ShloMosaic.Lib.StableHlo.Run

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Host Cert.Spec

local notation "𝕄" => MT nD τ sig Unit (Elt Ideal) ℕ (UR sig nD τ) ℕ

variable (m : (ℓ : Loc nD τ sig) → Buf (Elt Ideal) ℓ) (ρ : Dev nD → PrngReg)

/-! ## The run ends with every buffer at the fold of the four stretches -/

set_option backward.isDefEq.respectTransparency.types false in
/-- Every weakly fair execution terminates without a fault, the result buffer holding what the fold of the four
    stretches leaves there and the arguments what they were launched with. -/
theorem run_fold : θ_run defs (onTc (τ := τ) (main (F := Ideal))) ⟨m, fun _ => 0, ρ⟩ (fun r => ∀ c : Dev nD,
      r.2.mem ((c.tc : Thread nD τ).loc main_v34) = W4 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v34 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.Run

end
-- ==== Proof.KernelValue.lean ====
/-
  The idealized kernel's result as a function of its arguments.

  The run ends with every buffer at the fold of the program's four stretches over the launch contents. Read at the
  result buffer, one stretch at a time: the first call leaves `rowsTimesCols x W0`; the sixteen host operations after
  it aggregate that over the edges; the second call leaves `rowsTimesCols` of the rectified aggregate and `W1`; the
  last twenty-five host operations aggregate again and pick the rows `idx`. No stretch writes an argument, so every
  operand met on the way is the launch contents of its argument.
-/
import proofs.«107380_j51694226375203_2_alg».proof.Proof.KernelRun

set_option maxRecDepth 16384

noncomputable section

namespace Cert.KernelIdeal.Run

open Idealize.ShloMosaic Idealize.ShloMosaic.TcCoe Idealize.SL.Sem
open Cert.KernelIdeal Cert.KernelIdeal.Gen Cert.KernelIdeal.Host Cert.Spec

variable (m : (ℓ : Loc nD τ sig) → Buf (Elt Ideal) ℓ) (ρ : Dev nD → PrngReg)

/-! ## The fold, read stretch by stretch at the buffers the result depends on -/

/-- The arguments the host operations read are untouched by the first call. -/
theorem W1_arg3 (c : Dev nD) : W1 m ρ c (Proc.devRef .tc main_arg3) = m ((c : Thread nD τ).loc main_arg3) := W1_of_ne m ρ c main_arg3 (by decide)
theorem W1_arg4 (c : Dev nD) : W1 m ρ c (Proc.devRef .tc main_arg4) = m ((c : Thread nD τ).loc main_arg4) := W1_of_ne m ρ c main_arg4 (by decide)
theorem W1_arg5 (c : Dev nD) : W1 m ρ c (Proc.devRef .tc main_arg5) = m ((c : Thread nD τ).loc main_arg5) := W1_of_ne m ρ c main_arg5 (by decide)
theorem W1_arg6 (c : Dev nD) : W1 m ρ c (Proc.devRef .tc main_arg6) = m ((c : Thread nD τ).loc main_arg6) := W1_of_ne m ρ c main_arg6 (by decide)
theorem W1_arg2 (c : Dev nD) : W1 m ρ c (Proc.devRef .tc main_arg2) = m ((c : Thread nD τ).loc main_arg2) := W1_of_ne m ρ c main_arg2 (by decide)

/-- After the first call its output array is the first layer's product. -/
theorem W1_v0 (c : Dev nD) : W1 m ρ c (Proc.devRef .tc main_v0)
    = rowsTimesCols (n := 50000) (K := 512) (h := 128) (m ((c : Thread nD τ).loc main_arg0)) (m ((c : Thread nD τ).loc main_arg1)) :=
  (W1_arr m ρ c 2).trans (Layer0.final (V0 m ρ) c)

/-- The sixteen host operations between the calls aggregate that product over the edges. -/
theorem W2_v13 (c : Dev nD) : W2 m ρ c (Proc.devRef .tc main_v13)
    = aggregate128 (W1 m ρ c (Proc.devRef .tc main_v0)) (W1 m ρ c (Proc.devRef .tc main_arg3))
        (W1 m ρ c (Proc.devRef .tc main_arg4)) (W1 m ρ c (Proc.devRef .tc main_arg5)) := by
  show StableHlo.after hostOps1 (W1 m ρ c) (Proc.devRef .tc main_v13) = _
  after_results
  rfl

/-- Those operations write no argument. -/
theorem W2_arg2 (c : Dev nD) : W2 m ρ c (Proc.devRef .tc main_arg2) = m ((c : Thread nD τ).loc main_arg2) := by
  show StableHlo.after hostOps1 (W1 m ρ c) (Proc.devRef .tc main_arg2) = _
  after_results
  exact W1_arg2 m ρ c
theorem W2_arg3 (c : Dev nD) : W2 m ρ c (Proc.devRef .tc main_arg3) = m ((c : Thread nD τ).loc main_arg3) := by
  show StableHlo.after hostOps1 (W1 m ρ c) (Proc.devRef .tc main_arg3) = _
  after_results
  exact W1_arg3 m ρ c
theorem W2_arg4 (c : Dev nD) : W2 m ρ c (Proc.devRef .tc main_arg4) = m ((c : Thread nD τ).loc main_arg4) := by
  show StableHlo.after hostOps1 (W1 m ρ c) (Proc.devRef .tc main_arg4) = _
  after_results
  exact W1_arg4 m ρ c
theorem W2_arg5 (c : Dev nD) : W2 m ρ c (Proc.devRef .tc main_arg5) = m ((c : Thread nD τ).loc main_arg5) := by
  show StableHlo.after hostOps1 (W1 m ρ c) (Proc.devRef .tc main_arg5) = _
  after_results
  exact W1_arg5 m ρ c
theorem W2_arg6 (c : Dev nD) : W2 m ρ c (Proc.devRef .tc main_arg6) = m ((c : Thread nD τ).loc main_arg6) := by
  show StableHlo.after hostOps1 (W1 m ρ c) (Proc.devRef .tc main_arg6) = _
  after_results
  exact W1_arg6 m ρ c

/-- After the second call its output array is the second layer's product. -/
theorem W3_v14 (c : Dev nD) : W3 m ρ c (Proc.devRef .tc main_v14)
    = rowsTimesCols (n := 50000) (K := 128) (h := 64) (rectify (s := S50000x128) (W2 m ρ c (Proc.devRef .tc main_v13)))
        (W2 m ρ c (Proc.devRef .tc main_arg2)) :=
  (W3_arr m ρ c 2).trans (Layer1.final (V2 m ρ) c)

/-- The second call writes no argument the last stretch reads. -/
theorem W3_arg3 (c : Dev nD) : W3 m ρ c (Proc.devRef .tc main_arg3) = m ((c : Thread nD τ).loc main_arg3) :=
  (W3_of_ne m ρ c main_arg3 (by decide)).trans (W2_arg3 m ρ c)
theorem W3_arg4 (c : Dev nD) : W3 m ρ c (Proc.devRef .tc main_arg4) = m ((c : Thread nD τ).loc main_arg4) :=
  (W3_of_ne m ρ c main_arg4 (by decide)).trans (W2_arg4 m ρ c)
theorem W3_arg5 (c : Dev nD) : W3 m ρ c (Proc.devRef .tc main_arg5) = m ((c : Thread nD τ).loc main_arg5) :=
  (W3_of_ne m ρ c main_arg5 (by decide)).trans (W2_arg5 m ρ c)
theorem W3_arg6 (c : Dev nD) : W3 m ρ c (Proc.devRef .tc main_arg6) = m ((c : Thread nD τ).loc main_arg6) :=
  (W3_of_ne m ρ c main_arg6 (by decide)).trans (W2_arg6 m ρ c)

set_option maxHeartbeats 1000000 in
/-- The last twenty-five host operations aggregate the second product over the edges and pick the rows `idx`. -/
theorem W4_v34 (c : Dev nD) : W4 m ρ c (Proc.devRef .tc main_v34)
    = pick (aggregate64 (W3 m ρ c (Proc.devRef .tc main_v14)) (W3 m ρ c (Proc.devRef .tc main_arg3))
        (W3 m ρ c (Proc.devRef .tc main_arg4)) (W3 m ρ c (Proc.devRef .tc main_arg5))) (W3 m ρ c (Proc.devRef .tc main_arg6)) := by
  show StableHlo.after hostOps2 (W3 m ρ c) (Proc.devRef .tc main_v34) = _
  after_results_simp
  rfl

/-! ## The result as one function of the seven arguments -/

/-- Two graph-convolution layers and the final row selection. -/
def twoLayers (x : (⟨S50000x512, .f32⟩ : BufTy).Contents (Elt Ideal)) (w0 : (⟨S512x128, .f32⟩ : BufTy).Contents (Elt Ideal))
    (w1 : (⟨S128x64, .f32⟩ : BufTy).Contents (Elt Ideal)) (w : (⟨S800000, .f32⟩ : BufTy).Contents (Elt Ideal))
    (src dst : (⟨S800000, .i32⟩ : BufTy).Contents (Elt Ideal)) (idx : (⟨S1000, .i32⟩ : BufTy).Contents (Elt Ideal)) :
    (⟨S1000x64, .f32⟩ : BufTy).Contents (Elt Ideal) :=
  pick (aggregate64 (rowsTimesCols (n := 50000) (K := 128) (h := 64)
    (rectify (s := S50000x128) (aggregate128 (rowsTimesCols (n := 50000) (K := 512) (h := 128) x w0) w src dst)) w1) w src dst) idx

/-- What the fold leaves in the result buffer. -/
theorem W4_result (c : Dev nD) : W4 m ρ c (Proc.devRef .tc main_v34)
    = twoLayers (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  rw [W4_v34, W3_v14, W3_arg3, W3_arg4, W3_arg5, W3_arg6, W2_v13, W2_arg2, W1_v0, W1_arg3, W1_arg4, W1_arg5]
  rfl

/-- The idealized kernel runs, its result buffer ends at `twoLayers` of the arguments, and the arguments end unchanged. -/
theorem run : θ_run defs (onTc (τ := τ) (main (F := Ideal))) ⟨m, fun _ => 0, ρ⟩ (fun r => ∀ c : Dev nD,
      r.2.mem ((c.tc : Thread nD τ).loc main_v34)
        = twoLayers (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (W4_result m ρ c), (h c).2⟩) (run_fold m ρ)

end Cert.KernelIdeal.Run

end
-- ==== Proof.RefLayers.lean ====
/-
  The reference, layer by layer, in the kernel's terms.

  The host's two `dot_general`s contract the left operand's columns with the right operand's rows, so each is
  `rowsTimesCols` of its operands; the outlined `relu` is the entrywise maximum with an array of zeros, which is
  `rectify`. With the gather / scale / scatter-add chains carried as the functions `aggregate128`, `aggregate64` and
  `pick`, the reference's result is
    pick (aggregate64 (rowsTimesCols (rectify (aggregate128 (rowsTimesCols x W0) w src dst)) W1) w src dst) idx.
-/
import proofs.«107380_j51694226375203_2_alg».proof.Proof.Gen.ReferenceIdeal.Read
import proofs.«107380_j51694226375203_2_alg».proof.Proof.Spec
import proofs.«107380_j51694226375203_2_alg».proof.Proof.LibDense
import proofs.«107380_j51694226375203_2_alg».proof.Proof.HostSide

noncomputable section

namespace Cert.ReferenceIdeal.Layers

open Cert.ReferenceIdeal Idealize.ShloMosaic Idealize.ShloMosaic.ValueIdx Cert.Spec
open Cert.ReferenceIdeal.Facts₀

/-- The first `dot_general` is rows of `x` times columns of `W0`. -/
theorem dot0_eq (x : (⟨S50000x512, .f32⟩ : BufTy).Contents (Elt Ideal)) (w : (⟨S512x128, .f32⟩ : BufTy).Contents (Elt Ideal)) :
    Host.dotGeneral (F := Ideal) (φ₁ := .f32) (φ₂ := .f32) dot_S50000x512_S512x128_S50000x128_1_0_0_1_n_n none x w
      = rowsTimesCols (n := 50000) (K := 512) (h := 128) x w := by
  funext i
  obtain ⟨e, q, rfl⟩ : ∃ (e : Fin 50000) (q : Fin 128), i = ix2 e q := ⟨i 0, i 1, eq_ix2 i⟩
  simp only [Host.dotGeneral]
  exact dotGeneral_plain_apply dot_S50000x512_S512x128_S50000x128_1_0_0_1_n_n none _ rfl rfl
    Read.lhs_main_v0_0 Read.lhs_main_v0_1 Read.rhs_main_v0_0 Read.rhs_main_v0_1 x w e q

/-- The second `dot_general` is rows of its left operand times columns of `W1`. -/
theorem dot1_eq (x : (⟨S50000x128, .f32⟩ : BufTy).Contents (Elt Ideal)) (w : (⟨S128x64, .f32⟩ : BufTy).Contents (Elt Ideal)) :
    Host.dotGeneral (F := Ideal) (φ₁ := .f32) (φ₂ := .f32) dot_S50000x128_S128x64_S50000x64_1_0_0_1_n_n none x w
      = rowsTimesCols (n := 50000) (K := 128) (h := 64) x w := by
  funext i
  obtain ⟨e, q, rfl⟩ : ∃ (e : Fin 50000) (q : Fin 64), i = ix2 e q := ⟨i 0, i 1, eq_ix2 i⟩
  simp only [Host.dotGeneral]
  exact dotGeneral_plain_apply dot_S50000x128_S128x64_S50000x64_1_0_0_1_n_n none _ rfl rfl
    Read.lhs_main_v15_0 Read.lhs_main_v15_1 Read.rhs_main_v15_0 Read.rhs_main_v15_1 x w e q

/-- The outlined `relu`: the maximum with an array of zeros is the maximum of every entry with zero. -/
theorem relu_eq (s : (⟨S50000x128, .f32⟩ : BufTy).Contents (Elt Ideal)) :
    maximumf s (broadcastInDim S50000x128 ![] bcast_S_S50000x128 (constant (F := Ideal) S_ .f32 0x00000000#32))
      = rectify (s := S50000x128) s := by
  funext i
  rw [maximumf_apply, rectify_apply,
    broadcastInDim_apply _ bcast_S_S50000x128 (constant (F := Ideal) S_ .f32 0x00000000#32) i (fun a => a.elim0) (fun a => a.elim0)]
  rfl

end Cert.ReferenceIdeal.Layers

end
-- ==== Proof.lean ====
/-
  Two graph-convolution layers with a final row selection: the tiled kernel against the plain reference.

  Both programs compute, for node features `x`, weights `W0`, `W1` and a weighted edge list `(src, dst, w)`,
      out = A · (max(A · (x W0), 0) W1)   restricted to the rows `idx`,
  where `A · h` gathers row `src e` of `h` for every edge `e`, scales it by `w e` and adds it into row `dst e`. The
  kernel computes the two dense products `x W0` and `max(s, 0) W1` in pipelined calls tiled over ten blocks of 5000
  rows, rounding the operands to bf16 on the way in and taking the maximum with zero inside the second call; the
  reference uses two whole `dot_general`s and an outlined `relu`. Over the extended reals a change of float format is
  the identity and a product into a zero accumulator is the plain sum of products, and each row of a product depends
  on the same row of its left operand only, so the ten row blocks a call writes are the row blocks of the whole product
  (`Layer0.final`, `Layer1.final`). The sparse aggregations and the row selection are the same host operations in both
  programs, applied to equal arrays. Hence both results are `twoLayers` of the seven arguments, entry by entry; no
  finiteness of the inputs is used, since only the definition of the product as a sum is needed.

  The three frames are the generated ones (the reference's from its generated run); the idealization rewrote no
  operation of the kernel, so there is nothing for it to preserve.
-/
import proofs.«107380_j51694226375203_2_alg».proof.Defs
import proofs.«107380_j51694226375203_2_alg».proof.Proof.Gen.Kernel
import proofs.«107380_j51694226375203_2_alg».proof.Proof.Gen.Kernel.Skeleton
import proofs.«107380_j51694226375203_2_alg».proof.Proof.Gen.Kernel.Launch
import proofs.«107380_j51694226375203_2_alg».proof.Proof.Gen.Kernel.Points
import proofs.«107380_j51694226375203_2_alg».proof.Proof.Gen.Kernel.Frame
import proofs.«107380_j51694226375203_2_alg».proof.Proof.Gen.KernelIdeal
import proofs.«107380_j51694226375203_2_alg».proof.Proof.Gen.KernelIdeal.Skeleton
import proofs.«107380_j51694226375203_2_alg».proof.Proof.Gen.KernelIdeal.Launch
import proofs.«107380_j51694226375203_2_alg».proof.Proof.Gen.KernelIdeal.Points
import proofs.«107380_j51694226375203_2_alg».proof.Proof.Gen.KernelIdeal.Frame
import proofs.«107380_j51694226375203_2_alg».proof.Proof.Gen.ReferenceIdeal
import proofs.«107380_j51694226375203_2_alg».proof.Proof.Gen.Pre_finite_inputs
import proofs.«107380_j51694226375203_2_alg».proof.Proof.Gen.ReferenceIdeal.Run
import proofs.«107380_j51694226375203_2_alg».proof.Proof.Gen.ReferenceIdeal.Read
import proofs.«107380_j51694226375203_2_alg».proof.Proof.KernelValue
import proofs.«107380_j51694226375203_2_alg».proof.Proof.RefLayers
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at `twoLayers` of the arguments: the kernel's by its run read stretch by stretch,
    the reference's by its run with each `dot_general` read as rows times columns and `relu` as the maximum with zero. -/
theorem algebraic : Cert.algebraic_KernelIdeal_ReferenceIdeal := by
  intro m ρ m' ρ' _ hagree
  refine ⟨_, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [a0, a1, a2, a3, a4, a5, a6, Cert.ReferenceIdeal.Layers.dot0_eq, Cert.ReferenceIdeal.Layers.relu_eq,
    Cert.ReferenceIdeal.Layers.dot1_eq]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
